-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S1600000 : S_.BroadcastsInDim S1600000 (![] : Fin 0 → Fin S1600000.rank)
  reducesTo_S1600000_S_d0 : S1600000.ReducesTo [0] S_

variable [Facts]

def fn {F : FTy → Type} [FloatOps F] (main_arg0 : FVec F S100000x128 .f32) (main_arg1 : FVec F S128x64 .f32) (main_arg2 : IVec S1600000 32) (main_arg3 : IVec S1600000 32) (main_arg4 : FVec F S1600000 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S1600000 .f32 := Host.absf main_arg4
  let main_cst_2 : FVec F S_ .f32 := constant S_ .f32 0x7F800000#32
  let main_v10 : FVec F S1600000 .f32 := broadcastInDim S1600000 ![] bcast_S_S1600000 main_cst_2
  let main_v11 : IVec S1600000 1 := cmpf .olt main_v9 main_v10
  let main_c_3 : IVec S_ 1 := constantI S_ 1 1#1
  let main_v12 : IVec S_ 1 := (fun x v => Host.reduce IntOp.andi x v reducesTo_S1600000_S_d0 h_S_) main_v11 main_c_3
  let main_v13 : IVec S_ 1 := andi main_v8 main_v12
  main_v13
-- ==== Kernel.lean ====
abbrev S100000x128 : Shape := ⟨2, ![100000, 128]⟩
abbrev S128x64 : Shape := ⟨2, ![128, 64]⟩
abbrev S1600000 : Shape := ⟨1, ![1600000]⟩
abbrev S100000x64 : Shape := ⟨2, ![100000, 64]⟩
abbrev S5000x128 : Shape := ⟨2, ![5000, 128]⟩
abbrev S5000x64 : Shape := ⟨2, ![5000, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 22
  | .vmem => 5
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x64, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)

variable [Facts₀]

def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S1600000 : Shape := ⟨1, ![1600000]⟩
abbrev S100000x64 : Shape := ⟨2, ![100000, 64]⟩
abbrev S1600000x1 : Shape := ⟨2, ![1600000, 1]⟩
abbrev S_ : Shape := ⟨0, ![]⟩
abbrev S1600000x64 : Shape := ⟨2, ![1600000, 64]⟩

abbrev nBuf : Space → Nat
  | .hbm => 22
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S1600000, .i32⟩
  | .hbm, ⟨3, _⟩ => ⟨S1600000, .i32⟩
  | .hbm, ⟨4, _⟩ => ⟨S1600000, .f32⟩
  | .hbm, ⟨5, _⟩ => ⟨S100000x64, .f32⟩
  | .hbm, ⟨6, _⟩ => ⟨S1600000x1, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x64, .f32⟩
  | .hbm, ⟨16, _⟩ => ⟨S1600000x64, .f32⟩
  | .hbm, ⟨17, _⟩ => ⟨S1600000x64, .f32⟩
  | .hbm, ⟨18, _⟩ => ⟨S_, .f32⟩
  | .hbm, ⟨19, _⟩ => ⟨S100000x64, .f32⟩
  | .hbm, ⟨20, _⟩ => ⟨S1600000x1, .i32⟩
  | .hbm, ⟨21, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Block.lean ====
/-
  One grid point's product block. The kernel body at a point loads a 5000 × 128 block of the left operand and the whole
  128 × 64 right operand, narrows both to bf16 (at the ideal instance a change of format is the identity), and stores the
  matrix unit's product into a zero accumulator. Read at an index (r, c) of the 5000 × 64 block that product is the plain sum
  over the 128 contracted positions k of left (r, k) times right (k, c): the zero accumulator adds nothing, and the
  contracted shape has one axis of extent 128, so its index set is `Fin 128`.
-/
import proofs.«113501_j87342454931924_1_alg».proof.Proof.Gen.KernelIdeal.Skeleton
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-- The left operand's index at output index `j` and contracted index `q`: row of `j`, … -/
theorem lhs_row (j : S5000x64.Idx) (q : dot_S5000x128_S128x64_S5000x64_1_0_0_1_n_n.contr.Idx) :
    (dot_S5000x128_S128x64_S5000x64_1_0_0_1_n_n.lhsIdx j q 0).val = (j 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
/-- … column the contracted position; -/
theorem lhs_col (j : S5000x64.Idx) (q : dot_S5000x128_S128x64_S5000x64_1_0_0_1_n_n.contr.Idx) :
    (dot_S5000x128_S128x64_S5000x64_1_0_0_1_n_n.lhsIdx j q 1).val = (q ⟨0, by decide⟩).val :=
  dot_S5000x128_S128x64_S5000x64_1_0_0_1_n_n.lhsIdx_val_of_single rfl j q
/-- the right operand's: row the contracted position, … -/
theorem rhs_row (j : S5000x64.Idx) (q : dot_S5000x128_S128x64_S5000x64_1_0_0_1_n_n.contr.Idx) :
    (dot_S5000x128_S128x64_S5000x64_1_0_0_1_n_n.rhsIdx j q 0).val = (q ⟨0, by decide⟩).val :=
  dot_S5000x128_S128x64_S5000x64_1_0_0_1_n_n.rhsIdx_val_of_single rfl j q
/-- … column of `j`. -/
theorem rhs_col (j : S5000x64.Idx) (q : dot_S5000x128_S128x64_S5000x64_1_0_0_1_n_n.contr.Idx) :
    (dot_S5000x128_S128x64_S5000x64_1_0_0_1_n_n.rhsIdx j q 1).val = (j 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's stored value at an index of the block: the sum over the contracted axis of the products of the two loaded
    blocks' entries. -/
theorem product_apply (x0 : Vec Ideal S5000x128 .f32) (x1 : Vec Ideal S128x64 .f32) (j : S5000x64.Idx) :
    k0_pay1 (F := Ideal) x0 x1 j = ∑ k : Fin 128, x0 (ix2 (j 0) k) * x1 (ix2 k (j 1)) := by
  unfold k0_pay1
  refine (Ideal.matmul_constant_zero_apply dot_S5000x128_S128x64_S5000x64_1_0_0_1_n_n none _ _ j).trans ?_
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx j ((contrEquiv1 dot_S5000x128_S128x64_S5000x64_1_0_0_1_n_n 128 rfl rfl).symm k) = ix2 (j 0) k := funext fun a => Fin.ext (by
    match a with
    | ⟨0, _⟩ => exact lhs_row _ _
    | ⟨1, _⟩ => exact (lhs_col _ _).trans hk)
  have er : dot_S5000x128_S128x64_S5000x64_1_0_0_1_n_n.rhsIdx j ((contrEquiv1 dot_S5000x128_S128x64_S5000x64_1_0_0_1_n_n 128 rfl rfl).symm k) = ix2 k (j 1) := funext fun a => Fin.ext (by
    match a with
    | ⟨0, _⟩ => exact (rhs_row _ _).trans hk
    | ⟨1, _⟩ => exact rhs_col _ _)
  rw [el, er]
  rfl

end Cert.KernelIdeal.Block

end
-- ==== Proof.Dense.lean ====
/-
  The dense product the region leaves in its output array. The grid has twenty points; point t stages rows
  5000·t … 5000·t + 4999 of the left operand (all 128 columns), the whole right operand, and writes back rows
  5000·t … 5000·t + 4999 of the 100000 × 64 output. By the block lemma what it writes at (r, c) of its block is
  the sum over k of left (5000·t + r, k) · right (k, c): the block of ONE whole-array function, `rowsTimes`. The twenty row
  ranges tile the 100000 rows (row i lies in the block of point i / 5000), so after the region the array is that function.
-/
import proofs.«113501_j87342454931924_1_alg».proof.Proof.Gen.KernelIdeal.Frame
import proofs.«113501_j87342454931924_1_alg».proof.Proof.Block
import Idealize.ShloMosaic.Lib.Pipeline.Value
import Idealize.ShloMosaic.Lib.ValueIdx

set_option maxRecDepth 16384

noncomputable section

namespace Cert.KernelIdeal.Dense

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

/-- Rows times columns: entry (r, c) of the product of a 100000 × 128 array with a 128 × 64 array, over the extended reals. -/
def rowsTimes (x : S100000x128.Idx → EReal) (w : S128x64.Idx → EReal) : S100000x64.Idx → EReal :=
  fun i => ∑ k : Fin 128, x (ix2 (i 0) k) * w (ix2 k (i 1))

theorem origin : (![0, 0] : Fin 2 → Nat) = fun _ => 0 := funext fun a => by fin_cases a <;> rfl

/-- The printed index maps over the twenty grid points: the left operand's block and the output's block are the point's
    own row block, column block 0; the right operand's block is always block (0, 0). -/
theorem block_indices : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the product of the two argument arrays. -/
theorem flushed_eq (c : Dev nD) (t : Fin cfg0.N) :
    (dats m 0 c).flushed 2 t = ((cfg0.win 2).blk t).view.read (Elt Ideal) (rowsTimes (V m c main_arg0) (V m c main_arg1)) := by
  show (cfg0.win 2).cut (grid0.coords t) ((dats m 0 c).after 2 t) = _
  rw [after0_2]
  unfold out0_2
  rw [View.canon_unit_zero origin]
  simp only [View.ld_unit_zero (S := S5000x128) origin, View.ld_unit_zero (S := S128x64) origin]
  obtain ⟨e0, e1, e2, e3, e4, e5⟩ := block_indices t
  funext j
  refine (Block.product_apply (iblk m c 0 t) (iblk m c 1 t) j).trans ?_
  show _ = rowsTimes (V m c main_arg0) (V m c main_arg1) (((cfg0.win 2).blk t).view.emb j)
  simp only [rowsTimes]
  refine Finset.sum_congr rfl fun k _ => ?_
  have hl : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  have hr : ((cfg0.win 1).blk t).view.emb (ix2 k (j 1)) = ix2 k ((((cfg0.win 2).blk t).view.emb j) 1) := by
    funext a; apply Fin.ext
    match a with
    | ⟨0, _⟩ => show win0_1.index t (0 : Fin 2) * 128 + 1 * k.val = k.val; omega
    | ⟨1, _⟩ => show win0_1.index t (1 : Fin 2) * 64 + 1 * (j 1).val = win0_2.index t (1 : Fin 2) * 64 + 1 * (j 1).val; omega
  have e0 : iblk m c 0 t (ix2 (j 0) k) = V m c main_arg0 (((cfg0.win 0).blk t).view.emb (ix2 (j 0) k)) := rfl
  have e1 : iblk m c 1 t (ix2 k (j 1)) = V m c main_arg1 (((cfg0.win 1).blk t).view.emb (ix2 k (j 1))) := rfl
  rw [e0, e1, hl, hr]
  rfl

/-- An index of the output array is in point `t`'s block iff each coordinate is in the block's range on its axis. -/
theorem mem_block (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- The twenty row blocks tile the output: row i is written by point i / 5000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  let t : Fin cfg0.N := ⟨(i 0).val / 5000, by show (i 0).val / 5000 < 20; omega⟩
  obtain ⟨-, -, -, -, e4, e5⟩ := block_indices t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- After the region the output array is the product of the two argument arrays. -/
theorem final (c : Dev nD) :
    (dats m 0 c).arrAt 2 cfg0.N = rowsTimes (m ((c : Thread nD τ).loc main_arg0)) (m ((c : Thread nD τ).loc main_arg1)) :=
  (dats m 0 c).arrAt_eq_of_cover 2 (rowsTimes (V m c main_arg0) (V m c main_arg1)) (fun t _ => flushed_eq m c t) covered

end Cert.KernelIdeal.Dense

end
-- ==== Proof.Aggregate.lean ====
/-
  The sparse aggregation both programs share. After the dense product h (100000 × 64) both programs run, line for line, the
  same host operations: the column indices wrapped once if negative (col < 0 → col + 100000), the rows h[col] gathered, each
  scaled by its edge's value, and the scaled rows scatter-added at the row indices into a zero array. Written once as a function
  `aggregate` of h and the three edge arrays, the kernel's host tail is `aggregate` of whatever array the region left, and the
  reference's whole run is `aggregate` of its own `dot_general`; so equal products give equal results, with the gather and
  the scatter never opened.
-/
import proofs.«113501_j87342454931924_1_alg».proof.Proof.Gen.KernelIdeal.Frame
import proofs.«113501_j87342454931924_1_alg».proof.Proof.Gen.ReferenceIdeal.Read
import Idealize.ShloMosaic.Lib.StableHlo.Run

noncomputable section

namespace Cert.Aggregate

open Idealize.ShloMosaic Idealize.ShloMosaic.TcCoe Idealize.SL.Sem Idealize.ShloMosaic.StableHlo

section Def
open Cert.ReferenceIdeal Cert.ReferenceIdeal.Facts₀

/-- Gather the product's rows at the (wrapped) column indices, scale by the edge values, scatter-add at the row indices. -/
def aggregate (h : (⟨S100000x64, .f32⟩ : BufTy).Contents (Elt Ideal)) (x2 x3 : (⟨S1600000, .i32⟩ : BufTy).Contents (Elt Ideal))
    (x4 : (⟨S1600000, .f32⟩ : BufTy).Contents (Elt Ideal)) : (⟨S100000x64, .f32⟩ : BufTy).Contents (Elt Ideal) :=
  Host.scatterAdd scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (x2)) (mulf (broadcastInDim S1600000x64 ![0, 1] bcast_S1600000x1_S1600000x64_0_1 (broadcastInDim S1600000x1 ![0] bcast_S1600000_S1600000x1_0 (x4))) (Host.gather gather_S100000x64_S1600000x1_S1600000x64_1_0_n_n_0_1_164 h (broadcastInDim S1600000x1 ![0] bcast_S1600000_S1600000x1_0 (select (cmpi .slt (x3) (broadcastInDim S1600000 ![] bcast_S_S1600000 (constantI S_ 32 0#32))) (addi (x3) (broadcastInDim S1600000 ![] bcast_S_S1600000 (constantI S_ 32 100000#32))) (x3)))))

/-- The reference's result is the aggregation of its own dense product. -/
theorem reference_eq (x0 : (⟨S100000x128, .f32⟩ : BufTy).Contents (Elt Ideal)) (x1 : (⟨S128x64, .f32⟩ : BufTy).Contents (Elt Ideal))
    (x2 x3 : (⟨S1600000, .i32⟩ : BufTy).Contents (Elt Ideal)) (x4 : (⟨S1600000, .f32⟩ : BufTy).Contents (Elt Ideal)) :
    Read.val_main_v13 (F := Ideal) x0 x1 x2 x3 x4 = aggregate (Read.val_main_v0 (F := Ideal) x0 x1) x2 x3 x4 := rfl

end Def

section Kernel
open Cert.KernelIdeal Cert.KernelIdeal.Gen

/-- The kernel's host lines after the region, run from any contents `W` of the buffers, leave in the result buffer the
    aggregation of the region's output buffer and the three edge arrays as `W` has them. -/
theorem tail_eq (W : Valuation τ sig (Elt Ideal)) :
    StableHlo.after (hostOps1 (F := Ideal)) W (Proc.devRef .tc main_v13)
      = aggregate (W (Proc.devRef .tc main_v0)) (W (Proc.devRef .tc main_arg2)) (W (Proc.devRef .tc main_arg3)) (W (Proc.devRef .tc main_arg4)) := by
  after_results
  rfl

end Kernel

end Cert.Aggregate

end
-- ==== Proof.lean ====
/-
  Sparse aggregation of a dense feature transform: out = segment_sum(edge_val · (x · w)[edge_col], edge_row).

  The kernel computes the dense product h = x · w (100000 × 128 by 128 × 64) in a region of twenty grid points, each
  multiplying a block of 5000 rows of x by the whole of w on the matrix unit with bf16 operands and an f32 zero accumulator;
  the reference computes h by one `dot_general`. Over the extended reals a change of float format is the identity and both
  products are, entry by entry, the same sum over the 128 contracted positions of x (r, k) · w (k, c), in the same order — no
  algebraic law is needed, so the precondition (finite inputs) is never opened. After the product both programs run the same
  host lines (wrap the column indices, gather the rows, scale by the edge values, scatter-add at the row indices), which are
  one function `aggregate` of h and the edge arrays: equal products give equal results.

  * the region's output array is `rowsTimes x w` (Proof/Block.lean: one block; Proof/Dense.lean: the twenty blocks tile it);
  * the reference's `dot_general` is `rowsTimes x w` (`reference_dense` below, from the generated read-at-an-index lemma);
  * both results are `aggregate` of that array (Proof/Aggregate.lean).
  The three frames are the generated ones (the reference's is its generated run with the result dropped); the ideal pass
  rewrote nothing, so `preserves` is `True`.
-/
import proofs.«113501_j87342454931924_1_alg».proof.Defs
import proofs.«113501_j87342454931924_1_alg».proof.Proof.Gen.Kernel
import proofs.«113501_j87342454931924_1_alg».proof.Proof.Gen.Kernel.Skeleton
import proofs.«113501_j87342454931924_1_alg».proof.Proof.Gen.Kernel.Launch
import proofs.«113501_j87342454931924_1_alg».proof.Proof.Gen.Kernel.Points
import proofs.«113501_j87342454931924_1_alg».proof.Proof.Gen.Kernel.Frame
import proofs.«113501_j87342454931924_1_alg».proof.Proof.Gen.KernelIdeal
import proofs.«113501_j87342454931924_1_alg».proof.Proof.Gen.KernelIdeal.Skeleton
import proofs.«113501_j87342454931924_1_alg».proof.Proof.Gen.KernelIdeal.Launch
import proofs.«113501_j87342454931924_1_alg».proof.Proof.Gen.KernelIdeal.Points
import proofs.«113501_j87342454931924_1_alg».proof.Proof.Gen.KernelIdeal.Frame
import proofs.«113501_j87342454931924_1_alg».proof.Proof.Gen.ReferenceIdeal
import proofs.«113501_j87342454931924_1_alg».proof.Proof.Gen.Pre_finite_inputs
import proofs.«113501_j87342454931924_1_alg».proof.Proof.Gen.ReferenceIdeal.Run
import proofs.«113501_j87342454931924_1_alg».proof.Proof.Gen.ReferenceIdeal.Read
import proofs.«113501_j87342454931924_1_alg».proof.Proof.Block
import proofs.«113501_j87342454931924_1_alg».proof.Proof.Dense
import proofs.«113501_j87342454931924_1_alg».proof.Proof.Aggregate
import Idealize.ShloMosaic.Adequacy
import Idealize.ShloMosaic.Init

noncomputable section

namespace Cert.Proof

open Idealize.ShloMosaic Idealize.ShloMosaic.TcCoe Idealize.SL.Sem Idealize.ShloMosaic.ValueIdx

/-! ## The reference's dense product -/

/-- The reference's `dot_general` at an index is the same sum of products over the contracted axis. -/
theorem reference_dense (x0 : (⟨Cert.ReferenceIdeal.S100000x128, .f32⟩ : BufTy).Contents (Elt Ideal))
    (x1 : (⟨Cert.ReferenceIdeal.S128x64, .f32⟩ : BufTy).Contents (Elt Ideal)) :
    Cert.ReferenceIdeal.Read.val_main_v0 (F := Ideal) x0 x1 = Cert.KernelIdeal.Dense.rowsTimes x0 x1 := by
  funext i
  rw [Cert.ReferenceIdeal.Read.val_main_v0_apply]
  have el : ∀ k : Fin 128, Cert.ReferenceIdeal.Read.lidx_main_v0 i k = ix2 (i 0) k := fun k =>
    funext fun a => Fin.ext (by match a with | ⟨0, _⟩ => rfl | ⟨1, _⟩ => rfl)
  have er : ∀ k : Fin 128, Cert.ReferenceIdeal.Read.ridx_main_v0 i k = ix2 k (i 1) := fun k =>
    funext fun a => Fin.ext (by match a with | ⟨0, _⟩ => rfl | ⟨1, _⟩ => rfl)
  simp only [Cert.KernelIdeal.Dense.rowsTimes, el, er]
  rfl

/-! ## The kernel's run, read -/

section KernelRun
open Cert.KernelIdeal Cert.KernelIdeal.Gen

variable (m : (ℓ : Loc nD τ sig) → Buf (Elt Ideal) ℓ) (ρ : Dev nD → PrngReg)

/-- What the host lines after the region leave in the result buffer: the aggregation of the dense product of the
    argument arrays. The region's output buffer holds the array the twenty blocks tile; the edge arrays are no array of the
    region and are as launched. -/
theorem result_value (c : Dev nD) :
    Pipeline.afterTail₀ cfgs (dats m) 0 (V0 m) [hostOps1] c main_v13
      = Cert.Aggregate.aggregate (Dense.rowsTimes (m ((c : Thread nD τ).loc main_arg0)) (m ((c : Thread nD τ).loc main_arg1)))
          (m ((c : Thread nD τ).loc main_arg2)) (m ((c : Thread nD τ).loc main_arg3)) (m ((c : Thread nD τ).loc main_arg4)) := by
  unfold Pipeline.afterTail₀
  show StableHlo.after hostOps1 _ (Proc.devRef .tc main_v13) = _
  rw [Cert.Aggregate.tail_eq]
  have e0 := (Pipeline.withArrays_arr spec0 launch0.win.arr_inj c (V0 m c) (fun w => (dats m 0 c).arrAt w cfg0.N) 2).trans (Dense.final m c)
  have e2 := (Pipeline.withArrays_of_ne spec0 c (V0 m c) (fun w => (dats m 0 c).arrAt w cfg0.N) main_arg2 (by exact (by decide : ∀ w, Pipeline.arrRef spec0 w ≠ main_arg2))).trans (V_main_arg2 m c)
  have e3 := (Pipeline.withArrays_of_ne spec0 c (V0 m c) (fun w => (dats m 0 c).arrAt w cfg0.N) main_arg3 (by exact (by decide : ∀ w, Pipeline.arrRef spec0 w ≠ main_arg3))).trans (V_main_arg3 m c)
  have e4 := (Pipeline.withArrays_of_ne spec0 c (V0 m c) (fun w => (dats m 0 c).arrAt w cfg0.N) main_arg4 (by exact (by decide : ∀ w, Pipeline.arrRef spec0 w ≠ main_arg4))).trans (V_main_arg4 m c)
  exact congr (congr (congr (congrArg Cert.Aggregate.aggregate e0) e2) e3) e4

/-- The kernel's run with its result named: every weakly fair execution terminates with the result buffer at the
    aggregation of the dense product and the argument arrays unchanged. -/
theorem kernel_run : θ_run defs (onTc (τ := τ) (main (F := Ideal))) ⟨m, fun _ => 0, ρ⟩ (fun r => ∀ c : Dev nD,
      r.2.mem ((c.tc : Thread nD τ).loc main_v13)
        = Cert.Aggregate.aggregate (Dense.rowsTimes (m ((c : Thread nD τ).loc main_arg0)) (m ((c : Thread nD τ).loc main_arg1)))
            (m ((c : Thread nD τ).loc main_arg2)) (m ((c : Thread nD τ).loc main_arg3)) (m ((c : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_v13 (Pipeline.mem_restRefs_of main_v13 (by decide) (by decide))).trans (result_value m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c))⟩)
    (run_main m ρ)

end KernelRun

/-! ## The claims -/

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the five arguments both programs end with the aggregation of the same dense product. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.Aggregate.reference_eq, reference_dense,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
